-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x11008 : Shape := ⟨2, ![4096, 11008]⟩
abbrev S64x11008 : Shape := ⟨2, ![64, 11008]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S64x11008 : S_.BroadcastsInDim S64x11008 (![] : Fin 0 → Fin S64x11008.rank)
  reducesTo_S64x11008_S_d0_1 : S64x11008.ReducesTo [0, 1] S_

variable [Facts]

def fn {F : FTy → Type} [FloatOps F] (main_arg0 : FVec F S64x4096 .f32) (main_arg1 : IVec S4096x11008 32) (main_arg2 : FVec F S64x11008 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S64x11008 .f32 := Host.absf main_arg2
  let main_cst_0 : FVec F S_ .f32 := constant S_ .f32 0x7F800000#32
  let main_v5 : FVec F S64x11008 .f32 := broadcastInDim S64x11008 ![] bcast_S_S64x11008 main_cst_0
  let main_v6 : IVec S64x11008 1 := cmpf .olt main_v4 main_v5
  let main_c_1 : IVec S_ 1 := constantI S_ 1 1#1
  let main_v7 : IVec S_ 1 := (fun x v => Host.reduce IntOp.andi x v reducesTo_S64x11008_S_d0_1 h_S_) main_v6 main_c_1
  let main_v8 : IVec S_ 1 := andi main_v3 main_v7
  main_v8
-- ==== Kernel.lean ====
abbrev S64x4096 : Shape := ⟨2, ![64, 4096]⟩
abbrev S4096x11008 : Shape := ⟨2, ![4096, 11008]⟩
abbrev S64x11008 : Shape := ⟨2, ![64, 11008]⟩
abbrev S4096x256 : Shape := ⟨2, ![4096, 256]⟩
abbrev S64x256 : Shape := ⟨2, ![64, 256]⟩
abbrev S64x64x256 : Shape := ⟨3, ![64, 64, 256]⟩
abbrev S64x1x256 : Shape := ⟨3, ![64, 1, 256]⟩

abbrev nBuf : Space → Nat
  | .hbm => 5
  | .vmem => 7
  | .smem => 0
  | _ => 0

abbrev bufTy : (tb : Table) → Fin (tcTables nBuf tb) → BufTy
  | .hbm, ⟨0, _⟩ => ⟨S64x4096, .f32⟩
  | .hbm, ⟨1, _⟩ => ⟨S4096x11008, .i32⟩
  | .hbm, ⟨2, _⟩ => ⟨S64x11008, .f32⟩
  | .hbm, ⟨3, _⟩ => ⟨S64x4096, .bf16⟩
  | .hbm, ⟨4, _⟩ => ⟨S64x11008, .f32⟩
  | .local _ .vmem, ⟨0, _⟩ => ⟨S64x4096, .bf16⟩
  | .local _ .vmem, ⟨1, _⟩ => ⟨S4096x256, .i32⟩
  | .local _ .vmem, ⟨2, _⟩ => ⟨S4096x256, .i32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x256_S4096x256_0_0 : ∀ a, (![0, 0] : Fin 2 → Nat) a + S4096x256.size a ≤ S4096x256.size a
  h_S4096x256 : 0 < S4096x256.numel
  inb_S64x256_S64x256_0_0 : ∀ a, (![0, 0] : Fin 2 → Nat) a + S64x256.size a ≤ S64x256.size a
  h_S64x256 : 0 < S64x256.numel
  shapeCasts_S4096x256_S64x64x256 : S4096x256.ShapeCasts S64x64x256
  shapeCasts_S64x256_S64x1x256 : S64x256.ShapeCasts S64x1x256
  broadcasts_S64x1x256_S64x64x256 : S64x1x256.Broadcasts S64x64x256
  shapeCasts_S64x64x256_S4096x256 : S64x64x256.ShapeCasts S4096x256
  dot_S64x4096_S4096x256_S64x256_1_0_0_1_n_n_wf : DotDims.WF S64x4096 S4096x256 S64x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .bf16 = 32 ∨ (Rect.block (s := S64x4096) S64x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x11008.size a
  hwx0_1 : ∀ i : grid0.Coords, EltTy.bits .i32 = 32 ∨ (Rect.block (s := S4096x11008) S4096x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x11008.size a
  hwx0_2 : ∀ i : grid0.Coords, EltTy.bits .f32 = 32 ∨ (Rect.block (s := S64x11008) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x11008.size a
  hwx0_3 : ∀ i : grid0.Coords, EltTy.bits .f32 = 32 ∨ (Rect.block (s := S64x11008) S64x256.size (cc0_transform_3 i) (hinb0_3 i)).WholeWords (EltTy.packing .f32)

variable [Facts₀]

def dot_S64x4096_S4096x256_S64x256_1_0_0_1_n_n : DotDims S64x4096 S4096x256 S64x256 where
  lhsContracting := [1]
  rhsContracting := [0]
  lhsNonContracting := [0]
  rhsNonContracting := [1]
  lhsBatch := []
  rhsBatch := []
  wf := dot_S64x4096_S4096x256_S64x256_1_0_0_1_n_n_wf

abbrev win0_0 : Pipeline.Window sig grid0 :=
  Pipeline.Window.ofSpec (Memref.whole main_v0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x4096 : Shape := ⟨2, ![64, 4096]⟩
abbrev S4096x11008 : Shape := ⟨2, ![4096, 11008]⟩
abbrev S64x11008 : Shape := ⟨2, ![64, 11008]⟩
abbrev S_ : Shape := ⟨0, ![]⟩
abbrev S64x64x11008 : Shape := ⟨3, ![64, 64, 11008]⟩
abbrev S64x1x11008 : Shape := ⟨3, ![64, 1, 11008]⟩

abbrev nBuf : Space → Nat
  | .hbm => 13
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x11008, .i32⟩
  | .hbm, ⟨2, _⟩ => ⟨S64x11008, .f32⟩
  | .hbm, ⟨3, _⟩ => ⟨S_, .i32⟩
  | .hbm, ⟨4, _⟩ => ⟨S4096x11008, .i32⟩
  | .hbm, ⟨5, _⟩ => ⟨S4096x11008, .i32⟩
  | .hbm, ⟨6, _⟩ => ⟨S4096x11008, .f32⟩
  | .hbm, ⟨7, _⟩ => ⟨S64x64x11008, .f32⟩
  | .hbm, ⟨8, _⟩ => ⟨S64x1x11008, .f32⟩
  | .hbm, ⟨9, _⟩ => ⟨S64x64x11008, .f32⟩
  | .hbm, ⟨10, _⟩ => ⟨S64x64x11008, .f32⟩
  | .hbm, ⟨11, _⟩ => ⟨S4096x11008, .f32⟩
  | .hbm, ⟨12, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S_S4096x11008 : S_.BroadcastsInDim S4096x11008 (![] : Fin 0 → Fin S4096x11008.rank)
  shapeCasts_S4096x11008_S64x64x11008 : S4096x11008.ShapeCasts S64x64x11008
  bcast_S64x11008_S64x1x11008_0_2 : S64x11008.BroadcastsInDim S64x1x11008 (![0, 2] : Fin 2 → Fin S64x1x11008.rank)
  bcast_S64x1x11008_S64x64x11008_0_1_2 : S64x1x11008.BroadcastsInDim S64x64x11008 (![0, 1, 2] : Fin 3 → Fin S64x64x11008.rank)
  shapeCasts_S64x64x11008_S4096x11008 : S64x64x11008.ShapeCasts S4096x11008
  dot_S64x4096_S4096x11008_S64x11008_1_0_0_1_n_n_wf : DotDims.WF S64x4096 S4096x11008 S64x11008 [1] [0] [0] [1] [] []

variable [Facts₀]

def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf

class Facts : Prop extends Facts₀ where

variable [Facts]
-- ==== Proof.Spec.lean ====
/-
  The result both programs compute, as one function of the three argument arrays.

  The weight matrix is kept as 3-bit codes `q[k, n]` (each held in a 32-bit word) with one scale for
  every group of 64 consecutive rows: `w[k, n] = (q[k, n] - 4) · s[k / 64, n]`, where the difference is
  taken on 32-bit words and then read as a signed integer. The result is the matrix product
  `C[r, n] = Σ_k a[r, k] · w[k, n]`, a sum of 4096 products on the extended reals.
-/
import Idealize.ShloMosaic.PureOps.Ideal
import Idealize.ShloMosaic.Lib.ValueIdx

noncomputable section

open scoped BigOperators

namespace Cert.DequantProduct

open Idealize.ShloMosaic Idealize.ShloMosaic.ValueIdx

/-- The group of 64 consecutive weight rows that row `k` lies in. -/
def group (k : Fin 4096) : Fin 64 := ⟨k.val / 64, by have := k.isLt; omega⟩

theorem group_val (k : Fin 4096) : (group k).val = k.val / 64 := rfl

/-- The dequantised weight at row `k`, column `n`: the code minus the zero point 4 (on 32-bit words), read
    as a signed integer, times the scale of the row's group. -/
def weight (q : (⟨2, ![4096, 11008]⟩ : Shape).Idx → BitVec 32) (s : (⟨2, ![64, 11008]⟩ : Shape).Idx → EReal)
    (k : Fin 4096) (n : Fin 11008) : EReal :=
  (((q (ix2 k n) - 4#32).toInt : ℝ) : EReal) * s (ix2 (group k) n)

/-- The activations times the dequantised weights: entry `(r, n)` sums `a[r, k] · w[k, n]` over the 4096 rows `k`. -/
def product (a : (⟨2, ![64, 4096]⟩ : Shape).Idx → EReal) (q : (⟨2, ![4096, 11008]⟩ : Shape).Idx → BitVec 32)
    (s : (⟨2, ![64, 11008]⟩ : Shape).Idx → EReal) : (⟨2, ![64, 11008]⟩ : Shape).Idx → EReal :=
  fun i => ∑ k : Fin 4096, a (ix2 (i 0) k) * weight q s k (i 1)

end Cert.DequantProduct

end
-- ==== Proof.RefValue.lean ====
/-
  The reference, read at an index, is the specification.

  The reference subtracts the zero point from every code, converts the difference to a float, views the
  4096 × 11008 matrix as 64 groups of 64 rows, multiplies group `g` by row `g` of the scales (repeated
  along the 64 rows of the group), views the result as a 4096 × 11008 matrix again and contracts it with
  the activations. Row `k` of the matrix is position `k % 64` of group `k / 64`, and the two views undo
  each other, so entry `(k, n)` of the matrix it contracts is `(q[k, n] - 4) · s[k / 64, n]`.
-/
import proofs.«150565_j83356725281468_2_alg».proof.Proof.Gen.ReferenceIdeal.Read
import proofs.«150565_j83356725281468_2_alg».proof.Proof.Spec

noncomputable section

open scoped BigOperators

namespace Cert.ReferenceIdeal.RefValue

open Cert.ReferenceIdeal Cert.ReferenceIdeal.Read Idealize.ShloMosaic Idealize.ShloMosaic.ValueIdx Cert.DequantProduct

/-- The activation the `k`-th product of entry `i` reads: row `i 0`, column `k`. -/
theorem act_index (i : S64x11008.Idx) (k : Fin 4096) : lidx_main_v8 i k = ix2 (i 0) k :=
  funext fun a => Fin.ext (by match a with | ⟨0, _⟩ => rfl | ⟨1, _⟩ => rfl)

/-- Through the two views, entry `(k, n)` of the contracted matrix reads the code at `(k, n)`:
    `(k · 11008 + n) / 704512 = k / 64`, `(k · 11008 + n) / 11008 % 64 = k % 64`, and `(k / 64) · 64 + k % 64 = k`. -/
theorem code_index (i : S64x11008.Idx) (k : Fin 4096) :
    idx_main_v3 (idx_main_v7 (ridx_main_v8 i k)) = ix2 k (i 1) := by
  have hk : k.val < 4096 := k.isLt
  have hn : (i 1).val < 11008 := (i 1).isLt
  funext a
  apply Fin.ext
  match a with
  | ⟨0, _⟩ =>
    show (((k.val * 11008 + (i 1).val) / 704512 * 64 + (k.val * 11008 + (i 1).val) / 11008 % 64) * 11008
      + (k.val * 11008 + (i 1).val) % 11008) / 11008 = k.val
    omega
  | ⟨1, _⟩ =>
    show (((k.val * 11008 + (i 1).val) / 704512 * 64 + (k.val * 11008 + (i 1).val) / 11008 % 64) * 11008
      + (k.val * 11008 + (i 1).val) % 11008) % 11008 = (i 1).val
    omega

/-- and the scale of the group of row `k`, in column `n`. -/
theorem scale_index (i : S64x11008.Idx) (k : Fin 4096) :
    idx_main_v4 (idx_main_v5 (idx_main_v7 (ridx_main_v8 i k))) = ix2 (group k) (i 1) := by
  have hk : k.val < 4096 := k.isLt
  have hn : (i 1).val < 11008 := (i 1).isLt
  funext a
  apply Fin.ext
  match a with
  | ⟨0, _⟩ =>
    show (k.val * 11008 + (i 1).val) / 704512 = k.val / 64
    omega
  | ⟨1, _⟩ =>
    show (k.val * 11008 + (i 1).val) % 11008 = (i 1).val
    omega

/-- The matrix the reference contracts, at row `k` and the column of `i`, is the dequantised weight. -/
theorem weight_eq (q : (⟨S4096x11008, .i32⟩ : BufTy).Contents (Elt Ideal)) (s : (⟨S64x11008, .f32⟩ : BufTy).Contents (Elt Ideal))
    (i : S64x11008.Idx) (k : Fin 4096) :
    val_main_v7 (F := Ideal) q s (ridx_main_v8 i k) = weight q s k (i 1) := by
  rw [val_main_v7_apply, val_main_v6_apply, val_main_v3_apply, val_main_v2_apply, val_main_v1_apply, val_main_v0_apply,
    val_main_c_apply, val_main_v5_apply, val_main_v4_apply, code_index, scale_index]
  rfl

/-- The reference's result is the product of the activations with the dequantised weights. -/
theorem result_eq (a : (⟨S64x4096, .f32⟩ : BufTy).Contents (Elt Ideal)) (q : (⟨S4096x11008, .i32⟩ : BufTy).Contents (Elt Ideal))
    (s : (⟨S64x11008, .f32⟩ : BufTy).Contents (Elt Ideal)) :
    val_main_v8 (F := Ideal) a q s = product a q s := by
  funext i
  rw [val_main_v8_apply]
  exact Finset.sum_congr rfl fun k _ => by rw [weight_eq, act_index]; rfl

end Cert.ReferenceIdeal.RefValue

end
-- ==== Proof.Payload.lean ====
/-
  What one grid point of the kernel computes, read at an index.

  At a grid point the body holds the whole 64 × 4096 activation block, a 4096 × 256 block of codes and the
  64 × 256 block of their scales. It subtracts the zero point from every code, converts to a float, views the
  4096 rows as 64 groups of 64, multiplies group `g` by row `g` of the scales (repeated along the group),
  views the product as 4096 × 256 again and multiplies the activations with it on the matrix unit, into a
  zero accumulator. On the extended reals the changes of float format are the identity and the matrix
  product into zero is the plain sum, so entry `(r, c)` of the stored block is
  `Σ_k x[r, k] · ((codes[k, c] - 4) · scales[k / 64, c])`.
-/
import proofs.«150565_j83356725281468_2_alg».proof.Proof.Gen.KernelIdeal.Skeleton
import proofs.«150565_j83356725281468_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.DequantProduct

/-- The position of row `k` inside its group of 64 rows. -/
def within (k : Fin 4096) : Fin 64 := ⟨k.val % 64, Nat.mod_lt _ (by decide)⟩

/-- Row `k` of the 4096 × 256 view is position `k % 64` of group `k / 64` of the 64 × 64 × 256 view:
    both sit at offset `k · 256 + c` of the row-major order. -/
theorem rows_as_groups (k : Fin 4096) (c : Fin 256) :
    (S64x64x256.rowMajor (ix3 (group k) (within k) c)).val = (S4096x256.rowMajor (ix2 k c)).val := by
  rewrite [Shape.rowMajor_val_three, Shape.rowMajor_val_two]
  have hk : k.val < 4096 := k.isLt
  show (k.val / 64 * 64 + k.val % 64) * 256 + c.val = k.val * 256 + c.val
  omega

/-- Row `g` of the 64 × 256 scales is the one row of slab `g` of their 64 × 1 × 256 view. -/
theorem scales_as_slabs (g : Fin 64) (c : Fin 256) :
    (S64x256.rowMajor (ix2 g c)).val = (S64x1x256.rowMajor (ix3 g (0 : Fin 1) c)).val := by
  rewrite [Shape.rowMajor_val_three, Shape.rowMajor_val_two]
  show g.val * 256 + c.val = (g.val * 1 + 0) * 256 + c.val
  omega

/-- The dequantised weight block at row `k`, column `c`: the code minus 4 as a signed integer, times the
    scale of the row's group. -/
theorem weight_block (x1 : IVec S4096x256 32) (x2 : FVec Ideal S64x256 .f32)
    (h1 : S4096x256.ShapeCasts S64x64x256) (h2 : S64x256.ShapeCasts S64x1x256) (h3 : S64x1x256.Broadcasts S64x64x256)
    (h4 : S64x64x256.ShapeCasts S4096x256) (hb : FTy.bits .bf16 < FTy.bits .f32) (k : Fin 4096) (c : Fin 256) :
    (shapeCast S4096x256
        (mulf (shapeCast S64x64x256 (sitofp (F := Ideal) .bf16 (subi x1 (broadcast S4096x256 4#32))) h1)
          (broadcastTo S64x64x256 (shapeCast S64x1x256 (truncf .bf16 x2 hb) h2) h3)) h4 : FVec Ideal S4096x256 .bf16) (ix2 k c)
      = (((x1 (ix2 k c) - 4#32).toInt : ℝ) : EReal) * x2 (ix2 (group k) c) := by
  rw [shapeCast_apply _ h4 (ix2 k c) (ix3 (group k) (within k) c) (rows_as_groups k c), mulf_apply,
    shapeCast_apply _ h1 (ix3 (group k) (within k) c) (ix2 k c) (rows_as_groups k c).symm,
    broadcastTo_apply _ h3 (ix3 (group k) (within k) c) (ix3 (group k) (0 : Fin 1) c) (fun a => by
      match a with
      | ⟨0, _⟩ => show (group k).val = if (64 : Nat) = 1 then 0 else (group k).val; rw [if_neg (by decide)]
      | ⟨1, _⟩ => show 0 = if (1 : Nat) = 1 then 0 else (within k).val; rw [if_pos rfl]
      | ⟨2, _⟩ => show c.val = if (256 : Nat) = 1 then 0 else c.val; rw [if_neg (by decide)]),
    shapeCast_apply _ h2 (ix3 (group k) (0 : Fin 1) c) (ix2 (group k) c) (scales_as_slabs (group k) c)]
  rfl

/-- The matrix unit's dimension numbers contract the activations' columns with the weights' rows: at the
    output entry `j` and the contraction index `q` it reads the activations at `(j 0, q)` -/
theorem lhs_row (j : S64x256.Idx) (q : dot_S64x4096_S4096x256_S64x256_1_0_0_1_n_n.contr.Idx) :
    (dot_S64x4096_S4096x256_S64x256_1_0_0_1_n_n.lhsIdx j q 0).val = (j 0).val := by
  unfold DotDims.lhsIdx
  rw [dif_neg (show ¬(0 : Fin S64x4096.rank) ∈ dot_S64x4096_S4096x256_S64x256_1_0_0_1_n_n.lhsBatch by decide),
    dif_pos (show (0 : Fin S64x4096.rank) ∈ dot_S64x4096_S4096x256_S64x256_1_0_0_1_n_n.lhsNonContracting by decide)]
  rfl
theorem lhs_col (j : S64x256.Idx) (q : dot_S64x4096_S4096x256_S64x256_1_0_0_1_n_n.contr.Idx) :
    (dot_S64x4096_S4096x256_S64x256_1_0_0_1_n_n.lhsIdx j q 1).val = (q ⟨0, by decide⟩).val :=
  dot_S64x4096_S4096x256_S64x256_1_0_0_1_n_n.lhsIdx_val_of_single rfl j q
/-- and the weights at `(q, j 1)`. -/
theorem rhs_row (j : S64x256.Idx) (q : dot_S64x4096_S4096x256_S64x256_1_0_0_1_n_n.contr.Idx) :
    (dot_S64x4096_S4096x256_S64x256_1_0_0_1_n_n.rhsIdx j q 0).val = (q ⟨0, by decide⟩).val :=
  dot_S64x4096_S4096x256_S64x256_1_0_0_1_n_n.rhsIdx_val_of_single rfl j q
theorem rhs_col (j : S64x256.Idx) (q : dot_S64x4096_S4096x256_S64x256_1_0_0_1_n_n.contr.Idx) :
    (dot_S64x4096_S4096x256_S64x256_1_0_0_1_n_n.rhsIdx j q 1).val = (j 1).val := by
  unfold DotDims.rhsIdx
  rw [dif_neg (show ¬(1 : Fin S4096x256.rank) ∈ dot_S64x4096_S4096x256_S64x256_1_0_0_1_n_n.rhsBatch by decide),
    dif_pos (show (1 : Fin S4096x256.rank) ∈ dot_S64x4096_S4096x256_S64x256_1_0_0_1_n_n.rhsNonContracting by decide)]
  rfl

/-- The matrix product into a zero accumulator, at entry `(r, c)`, is the sum over the 4096 contracted
    positions of the left operand's `(r, k)` times the right operand's `(k, c)`. -/
theorem matmul_entry (l : FVec Ideal S64x4096 .bf16) (w : FVec Ideal S4096x256 .bf16) (r : Fin 64) (c : Fin 256) :
    matmul dot_S64x4096_S4096x256_S64x256_1_0_0_1_n_n none l w (constant S64x256 .f32 0x00000000#32) (ix2 r c)
      = ∑ k : Fin 4096, l (ix2 r k) * w (ix2 k c) := by
  simp only [matmul]
  rw [Ideal.matmul_constant_zero_apply,
    ← Equiv.sum_comp (contrEquiv1 dot_S64x4096_S4096x256_S64x256_1_0_0_1_n_n 4096 rfl rfl).symm]
  refine Finset.sum_congr rfl fun k _ => ?_
  have hk := contrEquiv1_symm_val dot_S64x4096_S4096x256_S64x256_1_0_0_1_n_n 4096 rfl rfl k
  have el : dot_S64x4096_S4096x256_S64x256_1_0_0_1_n_n.lhsIdx (ix2 r c)
      ((contrEquiv1 dot_S64x4096_S4096x256_S64x256_1_0_0_1_n_n 4096 rfl rfl).symm k) = ix2 r k :=
    funext fun a => Fin.ext (by
      match a with
      | ⟨0, _⟩ => exact lhs_row _ _
      | ⟨1, _⟩ => exact (lhs_col _ _).trans hk)
  have er : dot_S64x4096_S4096x256_S64x256_1_0_0_1_n_n.rhsIdx (ix2 r c)
      ((contrEquiv1 dot_S64x4096_S4096x256_S64x256_1_0_0_1_n_n 4096 rfl rfl).symm k) = ix2 k c :=
    funext fun a => Fin.ext (by
      match a with
      | ⟨0, _⟩ => exact (rhs_row _ _).trans hk
      | ⟨1, _⟩ => exact rhs_col _ _)
  rw [el, er]

/-- The block a grid point stores, at entry `(r, c)`. -/
theorem stored_entry (x0 : FVec Ideal S64x4096 .bf16) (x1 : IVec S4096x256 32) (x2 : FVec Ideal S64x256 .f32)
    (r : Fin 64) (c : Fin 256) :
    k0_pay1 (F := Ideal) x0 x1 x2 (ix2 r c)
      = ∑ k : Fin 4096, x0 (ix2 r k) * ((((x1 (ix2 k c) - 4#32).toInt : ℝ) : EReal) * x2 (ix2 (group k) c)) := by
  unfold k0_pay1
  rw [matmul_entry, shapeCast_self]
  exact Finset.sum_congr rfl fun k _ => by rw [weight_block]

end Cert.KernelIdeal.Payload

end
-- ==== Proof.KernelValue.lean ====
/-
  The kernel's result array, as one function of the argument arrays.

  The grid has 43 points. Point `t` is handed the whole activation matrix (rounded to the short format on
  the host before the call, which changes nothing on the extended reals), columns `256 t … 256 t + 255` of
  the codes and of the scales, and writes back columns `256 t … 256 t + 255` of the result. What it writes at
  row `r`, column `c` of its block is the product's entry `(r, 256 t + c)`; the 43 blocks tile the
  11008 columns, so the array ends holding the product everywhere.
-/
import proofs.«150565_j83356725281468_2_alg».proof.Proof.Gen.KernelIdeal.Value
import proofs.«150565_j83356725281468_2_alg».proof.Proof.Payload
import proofs.«150565_j83356725281468_2_alg».proof.Proof.Spec
import Idealize.ShloMosaic.Lib.Pipeline.Value
import Idealize.ShloMosaic.Lib.StableHlo.Run
import Idealize.ShloMosaic.Lib.Tactic

noncomputable section

open scoped BigOperators

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.DequantProduct
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at grid point `t`: the activations always at block (0, 0); the codes,
    the scales and the result at block (0, t). Decided over the 43 points. -/
theorem block_positions : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The array the first window stages is the activations as the host's rounding left them: on the
    extended reals, the activations. -/
theorem rounded_activations (c : Dev nD) :
    @Eq (S64x4096.Idx → EReal) (V m c main_v0) (m ((c : Thread nD τ).loc main_arg0)) := by
  have e : @Eq (FVec Ideal S64x4096 .bf16) (V m c main_v0)
      (truncf (F := Ideal) .bf16 (m ((c : Thread nD τ).loc main_arg0) : FVec Ideal S64x4096 .f32) bitsLt_bf16_f32) := by
    dsimp only [Gen.V, Gen.hostOps0]; after_results <;> rfl
  exact e

/-- The activation block at any point is the whole activation matrix. -/
theorem activations_block (c : Dev nD) (t : Fin cfg0.N) (y : S64x4096.Idx) :
    (iblk m c 0 t : Vec Ideal S64x4096 .bf16) y = (m ((c : Thread nD τ).loc main_arg0) : S64x4096.Idx → EReal) y := by
  obtain ⟨e0, e1, -⟩ := block_positions t
  unfold iblk
  rw [View.read_apply]
  show (V m c main_v0 : S64x4096.Idx → EReal) _ = _
  rw [rounded_activations]
  refine congrArg _ (funext fun a => Fin.ext ?_)
  match a with
  | ⟨0, _⟩ => show win0_0.index t (0 : Fin 2) * 64 + 1 * (y 0).val = (y 0).val; rw [e0]; omega
  | ⟨1, _⟩ => show win0_0.index t (1 : Fin 2) * 4096 + 1 * (y 1).val = (y 1).val; rw [e1]; omega

/-- The code block at point `t` is columns `256 t …` of the codes. -/
theorem codes_block (c : Dev nD) (t : Fin cfg0.N) (y : S4096x256.Idx) (i : S4096x11008.Idx)
    (h0 : (i 0).val = (y 0).val) (h1 : (i 1).val = t.val * 256 + (y 1).val) :
    (iblk m c 1 t : Vec Ideal S4096x256 .i32) y = (m ((c : Thread nD τ).loc main_arg1) : S4096x11008.Idx → BitVec 32) i := by
  obtain ⟨-, -, e0, e1, -⟩ := block_positions t
  unfold iblk
  rw [View.read_apply]
  show (V m c main_arg1 : S4096x11008.Idx → BitVec 32) _ = _
  rw [V_main_arg1]
  refine congrArg _ (funext fun a => Fin.ext ?_)
  match a with
  | ⟨0, _⟩ => show win0_1.index t (0 : Fin 2) * 4096 + 1 * (y 0).val = (i 0).val; rw [e0, h0]; omega
  | ⟨1, _⟩ => show win0_1.index t (1 : Fin 2) * 256 + 1 * (y 1).val = (i 1).val; rw [e1, h1]; omega

/-- The scale block at point `t` is columns `256 t …` of the scales. -/
theorem scales_block (c : Dev nD) (t : Fin cfg0.N) (y : S64x256.Idx) (i : S64x11008.Idx)
    (h0 : (i 0).val = (y 0).val) (h1 : (i 1).val = t.val * 256 + (y 1).val) :
    (iblk m c 2 t : Vec Ideal S64x256 .f32) y = (m ((c : Thread nD τ).loc main_arg2) : S64x11008.Idx → EReal) i := by
  obtain ⟨-, -, -, -, e0, e1, -⟩ := block_positions t
  unfold iblk
  rw [View.read_apply]
  show (V m c main_arg2 : S64x11008.Idx → EReal) _ = _
  rw [V_main_arg2]
  refine congrArg _ (funext fun a => Fin.ext ?_)
  match a with
  | ⟨0, _⟩ => show win0_2.index t (0 : Fin 2) * 64 + 1 * (y 0).val = (i 0).val; rw [e0, h0]; omega
  | ⟨1, _⟩ => show win0_2.index t (1 : Fin 2) * 256 + 1 * (y 1).val = (i 1).val; rw [e1, h1]; omega

/-- The product of the argument arrays as the kernel was launched with them. -/
abbrev result (c : Dev nD) : S64x11008.Idx → EReal :=
  product (m ((c : Thread nD τ).loc main_arg0)) (m ((c : Thread nD τ).loc main_arg1)) (m ((c : Thread nD τ).loc main_arg2))

/-- What point `t` writes back is block `t` of the product. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S64x4096) hz, View.ld_unit_zero (S := S4096x256) hz, View.ld_unit_zero (S := S64x256) hz]
  obtain ⟨-, -, -, -, -, -, e0, e1⟩ := block_positions t
  funext j
  have hj0 : (j 0).val < 64 := (j 0).isLt
  have hj1 : (j 1).val < 256 := (j 1).isLt
  show k0_pay1 (F := Ideal) (iblk m c 0 t) (iblk m c 1 t) (iblk m c 2 t) (ix2 (j 0) (j 1))
    = result m c (((cfg0.win 3).blk t).view.emb j)
  refine (Payload.stored_entry (iblk m c 0 t) (iblk m c 1 t) (iblk m c 2 t) (j 0) (j 1)).trans ?_
  have r0 : ((((cfg0.win 3).blk t).view.emb j) 0).val = (j 0).val := by
    show win0_3.index t (0 : Fin 2) * 64 + 1 * (j 0).val = (j 0).val; rw [e0]; omega
  have r1 : ((((cfg0.win 3).blk t).view.emb j) 1).val = t.val * 256 + (j 1).val := by
    show win0_3.index t (1 : Fin 2) * 256 + 1 * (j 1).val = t.val * 256 + (j 1).val; rw [e1]; omega
  refine Finset.sum_congr rfl fun k _ => ?_
  rw [activations_block m c t (ix2 (j 0) k),
    codes_block m c t (ix2 k (j 1)) (ix2 k ((((cfg0.win 3).blk t).view.emb j) 1)) rfl r1,
    scales_block m c t (ix2 (group k) (j 1)) (ix2 (group k) ((((cfg0.win 3).blk t).view.emb j) 1)) rfl r1]
  have ea : (ix2 (j 0) k : S64x4096.Idx) = ix2 ((((cfg0.win 3).blk t).view.emb j) 0) k :=
    funext fun a => Fin.ext (by match a with | ⟨0, _⟩ => exact r0.symm | ⟨1, _⟩ => rfl)
  rw [ea]
  rfl

/-- An index of the result is in point `t`'s block iff each coordinate is in the block's range. -/
theorem mem_blk (t : Fin cfg0.N) (i : S64x11008.Idx) :
    i ∈ ((cfg0.win 3).blk t).view.set ↔ ∀ a : Fin 2, win0_3.index t a * S64x256.size a ≤ (i a).val
      ∧ (i a).val < win0_3.index t a * S64x256.size a + S64x256.size a := by
  show i ∈ ((View.whole main_v1).slice (win0_3.rect t)).set ↔ _
  rw [View.set_slice_whole, Rect.mem_set_unit]
  exact Iff.rfl

/-- Column `n` of the result lies in the block of point `n / 256`: the 43 blocks tile the array. -/
theorem covered (i : S64x11008.Idx) :
    ∃ t : Fin cfg0.N, (cfg0.win 3).flush t = true ∧ i ∈ ((cfg0.win 3).blk t).view.set := by
  have h0 : (i 0).val < 64 := (i 0).isLt
  have h1 : (i 1).val < 11008 := (i 1).isLt
  have hN : cfg0.N = 43 := N_0
  obtain ⟨t, ht⟩ : ∃ t : Fin cfg0.N, t.val = (i 1).val / 256 := ⟨⟨(i 1).val / 256, by rw [hN]; omega⟩, rfl⟩
  obtain ⟨-, -, -, -, -, -, e0, e1⟩ := block_positions t
  refine ⟨t, flush0_3 t, ?_⟩
  rw [mem_blk]
  intro a
  match a with
  | ⟨0, _⟩ =>
    show win0_3.index t (0 : Fin 2) * 64 ≤ (i 0).val ∧ (i 0).val < win0_3.index t (0 : Fin 2) * 64 + 64
    rw [e0]; omega
  | ⟨1, _⟩ =>
    show win0_3.index t (1 : Fin 2) * 256 ≤ (i 1).val ∧ (i 1).val < win0_3.index t (1 : Fin 2) * 256 + 256
    rw [e1, ht]; omega

/-- So the result array ends holding the product. -/
theorem final (c : Dev nD) : (dats m 0 c).arrAt 3 cfg0.N = result m c :=
  (dats m 0 c).arrAt_eq_of_cover 3 (result m c) (fun t _ => flushed_eq m c t) covered

/-- The kernel's run, read: the result array at the product of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  A grouped-dequantisation matrix product: the kernel against its reference, on the extended reals.

  Both programs take activations `a` (64 × 4096), 3-bit weight codes `q` (4096 × 11008, one code per 32-bit
  word) and scales `s` (64 × 11008, one row per group of 64 consecutive weight rows), and return
  `C[r, n] = Σ_k a[r, k] · ((q[k, n] - 4) · s[k / 64, n])`.

  The kernel tiles the 11008 columns into 43 blocks of 256, rounds the activations, the scales and the
  centred codes to a shorter float format and multiplies on the matrix unit into a zero accumulator; the
  reference works on the whole arrays at once. On the extended reals a change of float format is the
  identity and the matrix product into zero is the plain sum over `k`, so every block of the kernel's
  result is the corresponding block of the reference's, term by term: no law of arithmetic beyond
  `0 + x = x` is used, and the finiteness of the inputs is never needed.

  `Spec` states the product; `RefValue` reads the reference's operations at an index and finds the product;
  `Payload` does the same for what one grid point stores; `KernelValue` places the 43 stored blocks in the
  result array. Here the five claims are assembled.
-/
import proofs.«150565_j83356725281468_2_alg».proof.Defs
import proofs.«150565_j83356725281468_2_alg».proof.Proof.Gen.Kernel
import proofs.«150565_j83356725281468_2_alg».proof.Proof.Gen.Kernel.Skeleton
import proofs.«150565_j83356725281468_2_alg».proof.Proof.Gen.Kernel.Launch
import proofs.«150565_j83356725281468_2_alg».proof.Proof.Gen.Kernel.Points
import proofs.«150565_j83356725281468_2_alg».proof.Proof.Gen.Kernel.Frame
import proofs.«150565_j83356725281468_2_alg».proof.Proof.Gen.KernelIdeal
import proofs.«150565_j83356725281468_2_alg».proof.Proof.Gen.KernelIdeal.Skeleton
import proofs.«150565_j83356725281468_2_alg».proof.Proof.Gen.KernelIdeal.Launch
import proofs.«150565_j83356725281468_2_alg».proof.Proof.Gen.KernelIdeal.Points
import proofs.«150565_j83356725281468_2_alg».proof.Proof.Gen.KernelIdeal.Frame
import proofs.«150565_j83356725281468_2_alg».proof.Proof.Gen.ReferenceIdeal
import proofs.«150565_j83356725281468_2_alg».proof.Proof.Gen.Pre_finite_inputs
import proofs.«150565_j83356725281468_2_alg».proof.Proof.Gen.KernelIdeal.Value
import proofs.«150565_j83356725281468_2_alg».proof.Proof.Gen.ReferenceIdeal.Run
import proofs.«150565_j83356725281468_2_alg».proof.Proof.Gen.ReferenceIdeal.Read
import proofs.«150565_j83356725281468_2_alg».proof.Proof.Spec
import proofs.«150565_j83356725281468_2_alg».proof.Proof.RefValue
import proofs.«150565_j83356725281468_2_alg».proof.Proof.Payload
import proofs.«150565_j83356725281468_2_alg».proof.Proof.KernelValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The kernel's text was read on the extended reals as it stands: nothing was rewritten. -/
theorem preserves : Cert.preserves_Kernel_KernelIdeal := trivial

/-- From memories that agree on the three arguments, the kernel's result array and the reference's both
    end at the product of the activations with the dequantised weights. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
